-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x4096 : Shape := ⟨3, ![8, 4096, 4096]⟩
abbrev S_ : Shape := ⟨0, ![]⟩

class Facts : Prop where
  bcast_S_S8x4096x4096 : S_.BroadcastsInDim S8x4096x4096 (![] : Fin 0 → Fin S8x4096x4096.rank)
  reducesTo_S8x4096x4096_S_d0_1_2 : S8x4096x4096.ReducesTo [0, 1, 2] S_
  h_S_ : 0 < S_.numel

variable [Facts]

def fn {F : FTy → Type} [FloatOps F] (main_arg0 : FVec F S8x4096x4096 .f32) : IVec S_ 1 :=
  let main_v0 : FVec F S8x4096x4096 .f32 := Host.absf main_arg0
  let main_cst : FVec F S_ .f32 := constant S_ .f32 0x7F800000#32
  let main_v1 : FVec F S8x4096x4096 .f32 := broadcastInDim S8x4096x4096 ![] bcast_S_S8x4096x4096 main_cst
  let main_v2 : IVec S8x4096x4096 1 := cmpf .olt main_v0 main_v1
  let main_c : IVec S_ 1 := constantI S_ 1 1#1
  let main_v3 : IVec S_ 1 := (fun x v => Host.reduce IntOp.andi x v reducesTo_S8x4096x4096_S_d0_1_2 h_S_) main_v2 main_c
  main_v3
-- ==== Kernel.lean ====
abbrev S8x4096x4096 : Shape := ⟨3, ![8, 4096, 4096]⟩
abbrev S32768x4096 : Shape := ⟨2, ![32768, 4096]⟩
abbrev S512x4096 : Shape := ⟨2, ![512, 4096]⟩
abbrev S128x4096 : Shape := ⟨2, ![128, 4096]⟩

abbrev nBuf : Space → Nat
  | .hbm => 4
  | .vmem => 4
  | .smem => 0
  | _ => 0

abbrev bufTy : (tb : Table) → Fin (tcTables nBuf tb) → BufTy
  | .hbm, ⟨0, _⟩ => ⟨S8x4096x4096, .f32⟩
  | .hbm, ⟨1, _⟩ => ⟨S32768x4096, .f32⟩
  | .hbm, ⟨2, _⟩ => ⟨S32768x4096, .f32⟩
  | .hbm, ⟨3, _⟩ => ⟨S8x4096x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | _, _ => ⟨S8x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8x4096x4096_S32768x4096 : S8x4096x4096.ShapeCasts S32768x4096
  inb_S512x4096_S128x4096_0_0 : ∀ a, (![0, 0] : Fin 2 → Nat) a + S128x4096.size a ≤ S512x4096.size a
  h_S128x4096 : 0 < S128x4096.numel
  shapeCasts_S128x4096_S128x4096 : S128x4096.ShapeCasts S128x4096
  inb_S512x4096_S128x4096_128_0 : ∀ a, (![128, 0] : Fin 2 → Nat) a + S128x4096.size a ≤ S512x4096.size a
  inb_S512x4096_S128x4096_256_0 : ∀ a, (![256, 0] : Fin 2 → Nat) a + S128x4096.size a ≤ S512x4096.size a
  inb_S512x4096_S128x4096_384_0 : ∀ a, (![384, 0] : Fin 2 → Nat) a + S128x4096.size a ≤ S512x4096.size a
  shapeCasts_S32768x4096_S8x4096x4096 : S32768x4096.ShapeCasts S8x4096x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S32768x4096.size a
  hwx0_0 : ∀ i : grid0.Coords, EltTy.bits .f32 = 32 ∨ (Rect.block (s := S32768x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S32768x4096.size a
  hwx0_1 : ∀ i : grid0.Coords, EltTy.bits .f32 = 32 ∨ (Rect.block (s := S32768x4096) S512x4096.size (cc0_transform_1 i) (hinb0_1 i)).WholeWords (EltTy.packing .f32)

variable [Facts₀]

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S8x4096x4096 : Shape := ⟨3, ![8, 4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8x4096x4096, .f32⟩
  | .hbm, ⟨1, _⟩ => ⟨S_, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S8x4096x4096, .f32⟩
  | .hbm, ⟨6, _⟩ => ⟨S8x4096x4096, .f32⟩
  | .hbm, ⟨7, _⟩ => ⟨S8x4096x4096, .f32⟩
  | .hbm, ⟨8, _⟩ => ⟨S_, .f32⟩
  | .hbm, ⟨9, _⟩ => ⟨S8x4096x4096, .f32⟩
  | .hbm, ⟨10, _⟩ => ⟨S8x4096x4096, .f32⟩
  | .hbm, ⟨11, _⟩ => ⟨S_, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .i1⟩
  | .hbm, ⟨17, _⟩ => ⟨S8x4096x4096, .f32⟩
  | .hbm, ⟨18, _⟩ => ⟨S8x4096x4096, .i1⟩
  | .hbm, ⟨19, _⟩ => ⟨S8x4096x4096, .f32⟩
  | .hbm, ⟨20, _⟩ => ⟨S_, .f32⟩
  | .hbm, ⟨21, _⟩ => ⟨S_, .f32⟩
  | .hbm, ⟨22, _⟩ => ⟨S8x4096x4096, .f32⟩
  | .hbm, ⟨23, _⟩ => ⟨S8x4096x4096, .f32⟩
  | _, _ => ⟨S8x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_cst_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_2 : Ref sig .tc := ⟨.hbm, 8, rfl⟩
abbrev main_v4 : Ref sig .tc := ⟨.hbm, 9, rfl⟩
abbrev main_v5 : Ref sig .tc := ⟨.hbm, 10, rfl⟩
abbrev main_cst_3 : Ref sig .tc := ⟨.hbm, 11, rfl⟩
abbrev main_v6 : Ref sig .tc := ⟨.hbm, 12, rfl⟩
abbrev main_v7 : Ref sig .tc := ⟨.hbm, 13, rfl⟩
abbrev main_cst_4 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_5 : Ref sig .tc := ⟨.hbm, 20, rfl⟩
abbrev main_call1_v0 : Ref sig .tc := ⟨.hbm, 21, rfl⟩
abbrev main_call1_v1 : Ref sig .tc := ⟨.hbm, 22, rfl⟩
abbrev main_v13 : Ref sig .tc := ⟨.hbm, 23, rfl⟩

abbrev nD : Nat := 1
abbrev τ : Topo := Topo.v7x

variable {F : FTy → Type} [FloatOps F]

class Facts₀ : Prop where
  bcast_S_S8x4096x4096 : S_.BroadcastsInDim S8x4096x4096 (![] : Fin 0 → Fin S8x4096x4096.rank)

variable [Facts₀]

class Facts : Prop extends Facts₀ where

variable [Facts]
-- ==== Proof.StepSpec.lean ====
/-
  The mathematics of the step function, with no program in sight.

  Both programs compute, element by element over the extended reals, the same staircase:

      s_u(x) = 0                          if x ≤ 0,
               (⌈x / θ⌉ - 1) · θ          if 0 < x ≤ u,
               x                          otherwise,

  where θ is the real number the single-precision pattern of 0.1 denotes (13421773 / 2^27, not 1/10)
  and u is the upper threshold. The two programs differ only in how they spell u: one writes the
  single-precision pattern of 1.6 (13421773 / 2^23), the other multiplies θ by 16. A product with a
  power of two moves the exponent and leaves the significand alone, so the two are one real number:
  13421773 / 2^27 · 16 = 13421773 / 2^23. That identity, `upper_eq`, is the only law this
  equivalence needs; in particular nothing here asks the input to be finite, because the two sides
  are the same function of x at every extended real, the infinities and the junk value included.
-/
import Idealize.ShloMosaic.PureOps.Ideal
import Idealize.ShloMosaic.Lib.ValueIdx

noncomputable section

namespace Cert.StepRelu

open Idealize.ShloMosaic

/-- The staircase `s_u` at threshold `u`: zero at or below zero, the lower edge of `x`'s bin of width θ
    up to `u`, and `x` itself above `u`. Written over the operations both programs use, so that each
    program's element is this term on the nose. -/
def stepAt (u x : Ideal .f32) : Ideal .f32 :=
  Scalar.select (FloatOps.cmpf .ole x (FloatOps.ofBits .f32 0x00000000#32)) (FloatOps.ofBits .f32 0x00000000#32)
    (Scalar.select (FloatOps.cmpf .ole x u)
      (FloatOps.mulf
        (FloatOps.subf (FloatOps.ceil (FloatOps.divf x (FloatOps.ofBits .f32 0x3DCCCCCD#32)))
          (FloatOps.ofBits .f32 0x3F800000#32))
        (FloatOps.ofBits .f32 0x3DCCCCCD#32))
      x)

/-- The bin width θ: the pattern of single-precision 0.1 denotes 13421773 / 2^27. -/
theorem ofBits_theta : Ideal.ofBits .f32 0x3DCCCCCD#32 = ((13421773 / 134217728 : ℝ) : EReal) := by
  simp [Ideal.ofBits, Ideal.ieee, -EReal.coe_mul]; norm_num

/-- The number of bins: the pattern of 16.0 denotes the real 16. -/
theorem ofBits_sixteen : Ideal.ofBits .f32 0x41800000#32 = ((16 : ℝ) : EReal) := by
  simp [Ideal.ofBits, Ideal.ieee, -EReal.coe_mul]; norm_num

/-- The upper threshold as a literal: the pattern of single-precision 1.6 denotes 13421773 / 2^23. -/
theorem ofBits_upper : Ideal.ofBits .f32 0x3FCCCCCD#32 = ((13421773 / 8388608 : ℝ) : EReal) := by
  simp [Ideal.ofBits, Ideal.ieee, -EReal.coe_mul]; norm_num

/-- θ · 16 is the literal upper threshold: sixteen is a power of two, so the product only shifts the
    exponent — 13421773 / 2^27 · 16 = 13421773 / 2^23. -/
theorem upper_eq :
    FloatOps.mulf (F := Ideal) (FloatOps.ofBits .f32 0x3DCCCCCD#32) (FloatOps.ofBits .f32 0x41800000#32)
      = FloatOps.ofBits .f32 0x3FCCCCCD#32 := by
  rw [Ideal.mulf_def, Ideal.ofBits_def, Ideal.ofBits_def, Ideal.ofBits_def, ofBits_theta, ofBits_sixteen, ofBits_upper,
    ← EReal.coe_mul]
  congr 1
  norm_num

end Cert.StepRelu

end
-- ==== Proof.RefIsStep.lean ====
/-
  The reference computes the staircase, element by element.

  Read one operation at a time, the reference divides by θ, takes the ceiling, subtracts one, multiplies by
  θ, and then chooses: zero where x ≤ 0, the binned value where x ≤ θ · 16, and x itself elsewhere. Every
  operation acts on one element and the constants are broadcast scalars, so the element at index `i` is
  the staircase `stepAt` of the element `x i`, with the threshold spelt as the product θ · 16; the
  product is the literal threshold by `upper_eq`.
-/
import proofs.«158872_j15771119911450_2_alg».proof.Proof.Gen.ReferenceIdeal.Read
import proofs.«158872_j15771119911450_2_alg».proof.Proof.StepSpec

noncomputable section

namespace Cert.StepRelu.Ref

open Cert.ReferenceIdeal Cert.ReferenceIdeal.Gen Cert.ReferenceIdeal.Read Idealize.ShloMosaic Cert.StepRelu

/-- The reference's last stage is the staircase at the literal threshold applied to each element. On the
    extended reals the host's quotient and ceiling are the same functions as the vector unit's, so after the
    stages are read at the index only the spelling of the threshold is left to reconcile. -/
theorem result_is_step (x : (⟨S8x4096x4096, .f32⟩ : BufTy).Contents (Elt Ideal)) :
    val_main_v13 (F := Ideal) x = fun i => stepAt (FloatOps.ofBits .f32 0x3FCCCCCD#32) (x i) := by
  funext i
  simp only [val_main_v13_apply, val_main_v9_apply, val_main_call1_v1_apply, val_main_call1_v0_apply,
    val_main_cst_5_apply, val_main_v12_apply, val_main_v11_apply, val_main_v10_apply, val_main_v0_apply,
    val_main_cst_apply, val_main_cst_0_apply, val_main_v7_apply, val_main_v5_apply, val_main_v3_apply,
    val_main_v2_apply, val_main_v1_apply, val_main_cst_1_apply, val_main_v4_apply, val_main_cst_2_apply,
    val_main_v6_apply, val_main_cst_3_apply, val_main_v8_apply, val_main_cst_4_apply]
  rw [upper_eq]
  rfl

end Cert.StepRelu.Ref

end
-- ==== Proof.BodyIsStep.lean ====
/-
  The kernel's body computes the staircase on every row slice it stores.

  The body cuts its 512-row block into four slices of 128 rows. For each slice it loads the rows, applies
  the same chain of element-wise operations — divide by θ, ceiling, subtract one, multiply by θ, then the two
  comparisons and selections against zero and the literal threshold — and stores the result over the same
  rows of the output block. So each stored slice is the staircase of the loaded slice, element by element,
  and because the four slices tile the block, the whole output block is the staircase of the whole input
  block.
-/
import proofs.«158872_j15771119911450_2_alg».proof.Proof.Gen.KernelIdeal.Frame
import proofs.«158872_j15771119911450_2_alg».proof.Proof.StepSpec
import Idealize.ShloMosaic.Lib.Pipeline.Value

noncomputable section

namespace Cert.StepRelu.Body

open Cert.KernelIdeal Cert.KernelIdeal.Gen Idealize.ShloMosaic Cert.StepRelu

/-- The literal upper threshold the body compares against. -/
abbrev upper : Ideal .f32 := FloatOps.ofBits .f32 0x3FCCCCCD#32

/-- The slice stored at rows 256–383 is the staircase of the slice loaded there. The body's cast of a
    slice to its own shape changes nothing. -/
theorem pay1_apply (v : Vec Ideal S128x4096 .f32) (j : S128x4096.Idx) :
    k0_pay1 (F := Ideal) v j = stepAt upper (v j) := by
  have e : k0_pay1 (F := Ideal) v j
      = stepAt upper (shapeCast S128x4096 v shapeCasts_S128x4096_S128x4096 j) := rfl
  rw [e, shapeCast_self]

/-- The slice stored at rows 384–511. -/
theorem pay2_apply (v : Vec Ideal S128x4096 .f32) (j : S128x4096.Idx) :
    k0_pay2 (F := Ideal) v j = stepAt upper (v j) := by
  have e : k0_pay2 (F := Ideal) v j
      = stepAt upper (shapeCast S128x4096 v shapeCasts_S128x4096_S128x4096 j) := rfl
  rw [e, shapeCast_self]

/-- The slice stored at rows 0–127. -/
theorem pay3_apply (v : Vec Ideal S128x4096 .f32) (j : S128x4096.Idx) :
    k0_pay3 (F := Ideal) v j = stepAt upper (v j) := by
  have e : k0_pay3 (F := Ideal) v j
      = stepAt upper (shapeCast S128x4096 v shapeCasts_S128x4096_S128x4096 j) := rfl
  rw [e, shapeCast_self]

/-- The slice stored at rows 128–255. -/
theorem pay4_apply (v : Vec Ideal S128x4096 .f32) (j : S128x4096.Idx) :
    k0_pay4 (F := Ideal) v j = stepAt upper (v j) := by
  have e : k0_pay4 (F := Ideal) v j
      = stepAt upper (shapeCast S128x4096 v shapeCasts_S128x4096_S128x4096 j) := rfl
  rw [e, shapeCast_self]

/-- The output block the body leaves is the staircase of the input block, element by element: each of the
    four stored slices is the staircase of the rows it was loaded from, a slice's element at a local index
    being the block's element at the index the slice's rectangle sends it to, and the four rectangles cover
    the block. -/
theorem block_is_step (x0 : Vec Ideal S512x4096 .f32) :
    out0_1 (F := Ideal) x0 = fun y => stepAt upper (x0 y) := by
  funext y
  unfold out0_1
  refine View.canon_apply_of_pieces (Val := Elt Ideal) (S := S512x4096) (e := .f32)
    (fun y => stepAt upper (x0 y)) _ ?_ y (cover0_1 _ _ _ _ y)
  intro p hp
  simp only [List.mem_cons, List.mem_nil_iff, or_false] at hp
  rcases hp with rfl | rfl | rfl | rfl
  · intro x; exact pay2_apply _ x
  · intro x; exact pay1_apply _ x
  · intro x; exact pay4_apply _ x
  · intro x; exact pay3_apply _ x

end Cert.StepRelu.Body

end
-- ==== Proof.BlocksToArray.lean ====
/-
  From blocks to the whole array.

  The grid has 64 points. At point `t` the input window fetches rows 512·t … 512·t + 511 of the
  32768 × 4096 array the region finds, all 4096 columns, and the output window writes the body's block
  back to the same rows of the output array: the two windows share one block shape and one index map.
  The body turns its input block into the staircase of that block, element by element, so what point `t`
  writes back is rows 512·t … 512·t + 511 of ONE whole-array function — the staircase applied to every
  element of the input array. Every row `r` of the output lies in the block of point `r / 512`, so the blocks
  cover the output array, and after the run the output array is the staircase of the input array.
-/
import proofs.«158872_j15771119911450_2_alg».proof.Proof.Gen.KernelIdeal.Frame
import proofs.«158872_j15771119911450_2_alg».proof.Proof.BodyIsStep
import Idealize.ShloMosaic.Lib.Pipeline.Value

set_option maxRecDepth 16384

noncomputable section

namespace Cert.StepRelu.Blocks

open Cert.KernelIdeal Cert.KernelIdeal.Gen Idealize.ShloMosaic Idealize.ShloMosaic.TcCoe Idealize.SL.Sem
open Idealize.ShloMosaic.Pipeline (Dat)
open Cert.StepRelu Cert.StepRelu.Body

variable (m : (ℓ : Loc nD τ sig) → Buf (Elt Ideal) ℓ)

/-- The staircase applied to every element of a 32768 × 4096 array. -/
abbrev stepAll (a : S32768x4096.Idx → Elt Ideal .f32) : S32768x4096.Idx → Elt Ideal .f32 :=
  fun i => stepAt upper (a i)

/-- The two windows move together: at every grid point the input's block index equals the output's on both
    axes, the row-block index is below 64 and the column-block index is zero. -/
theorem index_maps_agree : ∀ t : Fin cfg0.N, win0_0.index t (0 : Fin 2) = win0_1.index t (0 : Fin 2)
    ∧ win0_0.index t (1 : Fin 2) = win0_1.index t (1 : Fin 2)
    ∧ win0_1.index t (0 : Fin 2) ≤ 63
    ∧ win0_1.index t (1 : Fin 2) = 0 :=
  (by decide +kernel : ∀ t : Fin grid0.N, _)

/-- Every one of the 64 row blocks is some grid point's. -/
theorem every_row_block_visited : ∀ (q : Fin 64), ∃ t : Fin cfg0.N, win0_1.index t = ![q.val, 0] :=
  (by decide +kernel : ∀ (q : Fin 64), ∃ t : Fin grid0.N, win0_1.index t = ![q.val, 0])

/-- What point `t` writes back is block `t` of the staircase of the input array as the region finds it: the
    body's block is the staircase of the input block, and an element of the input block sits in the input array
    exactly where the same element of the output block sits in the output array (block index × block size + the
    coordinate inside the block, with equal block indices). -/
theorem flushed_is_step_block (c : Dev nD) (t : Fin cfg0.N) :
    (dats m 0 c).flushed 1 t = ((cfg0.win 1).blk t).view.read (Elt Ideal) (stepAll (V m c main_v0)) := by
  show (cfg0.win 1).cut (grid0.coords t) ((dats m 0 c).after 1 t) = _
  rw [after0_1, block_is_step]
  obtain ⟨e0, e1, e2, e3⟩ := index_maps_agree t
  funext j
  show stepAt upper (V m c main_v0 (((cfg0.win 0).blk t).view.emb j))
    = stepAt upper (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 4096 + 1 * (j 1).val = win0_1.index t (1 : Fin 2) * 4096 + 1 * (j 1).val; omega
  rw [h0]

/-- An index of the output array is in point `t`'s block iff each coordinate is in the block's range on its axis. -/
theorem mem_block (t : Fin cfg0.N) (i : S32768x4096.Idx) :
    i ∈ ((cfg0.win 1).blk t).view.set ↔ ∀ a : Fin 2, win0_1.index t a * S512x4096.size a ≤ (i a).val
      ∧ (i a).val < win0_1.index t a * S512x4096.size a + S512x4096.size a := by
  show i ∈ ((View.whole main_v1).slice (win0_1.rect t)).set ↔ _
  rw [View.set_slice_whole, Rect.mem_set_unit]
  exact Iff.rfl

/-- The blocks cover the output array: row `r` lies in the block of the point whose row-block index is
    `r / 512`, and every block spans all 4096 columns. -/
theorem blocks_cover (i : S32768x4096.Idx) :
    ∃ t : Fin cfg0.N, (cfg0.win 1).flush t = true ∧ i ∈ ((cfg0.win 1).blk t).view.set := by
  have hi0 : (i 0).val < 32768 := (i 0).isLt
  have hi1 : (i 1).val < 4096 := (i 1).isLt
  obtain ⟨t, ht⟩ := every_row_block_visited ⟨(i 0).val / 512, by omega⟩
  have q0 : win0_1.index t (0 : Fin 2) = (i 0).val / 512 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 512 ≤ (i 0).val ∧ (i 0).val < win0_1.index t (0 : Fin 2) * 512 + 512; omega
  | ⟨1, _⟩ => show win0_1.index t (1 : Fin 2) * 4096 ≤ (i 1).val ∧ (i 1).val < win0_1.index t (1 : Fin 2) * 4096 + 4096; omega

/-- After the run the output array is the staircase of the input array as the region found it. -/
theorem output_is_step (c : Dev nD) : (dats m 0 c).arrAt 1 cfg0.N = stepAll (V m c main_v0) :=
  (dats m 0 c).arrAt_eq_of_cover 1 (stepAll (V m c main_v0)) (fun t _ => flushed_is_step_block m c t) blocks_cover

end Cert.StepRelu.Blocks

end
-- ==== Proof.HostGlue.lean ====
/-
  The host lines around the region, and the kernel program's result as one function of its argument.

  Before the region the program reshapes its 8 × 4096 × 4096 argument to 32768 × 4096 (merging the two
  leading axes; row-major order is kept), and the region's input window reads that array. After the region
  the program reshapes the region's 32768 × 4096 output back to 8 × 4096 × 4096. The region applies the
  staircase to every element. A function applied element by element commutes with any rearrangement of the
  elements, and reshaping there and back is the identity, so the program's result is the staircase of its
  argument, element by element, at the original shape.
-/
import proofs.«158872_j15771119911450_2_alg».proof.Proof.Gen.KernelIdeal.Frame
import proofs.«158872_j15771119911450_2_alg».proof.Proof.BlocksToArray
import Idealize.ShloMosaic.Lib.StableHlo.Run
import Idealize.ShloMosaic.Lib.Pipeline.Value

set_option maxRecDepth 16384

noncomputable section

namespace Cert.StepRelu.Glue

open Cert.KernelIdeal Cert.KernelIdeal.Gen Idealize.ShloMosaic Idealize.ShloMosaic.TcCoe Idealize.SL.Sem
open Idealize.ShloMosaic.StableHlo
open Cert.StepRelu Cert.StepRelu.Body Cert.StepRelu.Blocks

/-- A function applied to every element between a reshape and the reshape back is that function applied to
    every element of the original: a reshape only renames positions, so it commutes with an element-wise map,
    and there-and-back is the identity. -/
theorem map_between_reshapes {s t : Shape} {α β : Type} (f : α → β) (v : s.Idx → α)
    (h : s.ShapeCasts t) (h' : t.ShapeCasts s) :
    shapeCast s (fun k => f (shapeCast t v h k)) h' = fun i => f (v i) := by
  have e : shapeCast s (fun k => f (shapeCast t v h k)) h'
      = fun i => f (shapeCast s (shapeCast t v h) h' i) := rfl
  rw [e, shapeCast_shapeCast]

variable (m : (ℓ : Loc nD τ sig) → Buf (Elt Ideal) ℓ)

/-- The array the region's input window reads is the argument reshaped to 32768 × 4096: of the two host lines
    before the region the first writes it, and the second (the copy that gives the aliased output a buffer of
    its own) writes another buffer. -/
theorem input_is_reshaped (c : Dev nD) :
    (V m c main_v0 : S32768x4096.Idx → Elt Ideal .f32)
      = shapeCast S32768x4096 (m ((c : Thread nD τ).loc main_arg0)) shapeCasts_S8x4096x4096_S32768x4096 := by
  show StableHlo.after hostOps0 (fun b => m (c, b)) (Proc.devRef .tc main_v0) = _
  after_results
  rfl

/-- The program's result buffer is the region's output array reshaped back to 8 × 4096 × 4096: the one host
    line after the region reads the output array as the region left it. -/
theorem result_is_reshaped (c : Dev nD) :
    (Pipeline.afterTail₀ cfgs (dats m) 0 (V0 m) [hostOps1] c main_v2 : S8x4096x4096.Idx → Elt Ideal .f32)
      = shapeCast S8x4096x4096 ((dats m 0 c).arrAt 1 cfg0.N) shapeCasts_S32768x4096_S8x4096x4096 := by
  unfold Pipeline.afterTail₀
  show StableHlo.after hostOps1 _ (Proc.devRef .tc main_v2) = _
  after_results
  exact congrArg (fun a : S32768x4096.Idx → Elt Ideal .f32 =>
      shapeCast S8x4096x4096 a shapeCasts_S32768x4096_S8x4096x4096)
    (Pipeline.withArrays_arr spec0 launch0.win.arr_inj c _ _ 1)

/-- The kernel program's result is the staircase of its argument, element by element. -/
theorem result_is_step (c : Dev nD) :
    (Pipeline.afterTail₀ cfgs (dats m) 0 (V0 m) [hostOps1] c main_v2 : S8x4096x4096.Idx → Elt Ideal .f32)
      = fun i => stepAt upper (m ((c : Thread nD τ).loc main_arg0) i) := by
  rw [result_is_reshaped, output_is_step, input_is_reshaped]
  exact map_between_reshapes (stepAt upper) _ _ _

/-- Every weakly fair execution of the kernel program terminates without a fault, with its result at the
    staircase of its argument and the argument unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v2)
          = (fun i => stepAt upper (m ((c.tc : Thread nD τ).loc main_arg0) i))
        ∧ r.2.mem ((c.tc : Thread nD τ).loc main_arg0) = m ((c.tc : Thread nD τ).loc main_arg0) :=
  (θ_run defs _ _).mono (fun r h c =>
    ⟨((h c).2 main_v2 (Pipeline.mem_restRefs_of main_v2 (by decide) (by decide))).trans (result_is_step m c),
     ((h c).2 main_arg0 (Pipeline.mem_restRefs_of main_arg0 (by decide) (by decide))).trans (W_main_arg0 m (dats m) c)⟩)
    (run_main m ρ)

end Cert.StepRelu.Glue

end
-- ==== Proof.lean ====
/-
  A step function (a staircase of sixteen bins) applied to every element of an 8 × 4096 × 4096 array: the
  tiled kernel and the plain array program compute the same extended real at every index.

  Both apply, to each element x,

      s(x) = 0                      if x ≤ 0,
             (⌈x / θ⌉ - 1) · θ      if 0 < x ≤ u,
             x                      otherwise,

  with θ the real number that single-precision 0.1 denotes and u the upper threshold. The kernel works on
  the array viewed as 32768 rows of 4096, in 64 blocks of 512 rows, each block handled as four slices of 128
  rows; none of that changes a value, because the function acts on one element at a time: the slices tile a
  block (Proof/BodyIsStep.lean), the blocks tile the array (Proof/BlocksToArray.lean), and the two reshapes
  around the region undo one another (Proof/HostGlue.lean). The array program applies the same operations to
  the whole array at once (Proof/RefIsStep.lean). The one place the two texts differ is the threshold: the
  kernel writes u as a literal, the array program computes θ · 16; sixteen being a power of two, the product
  is exactly that literal (Proof/StepSpec.lean, `upper_eq`). The division, the ceiling, the comparisons and
  the selections are the same functions of an extended real on both sides, so the equality holds at every
  extended real, and the hypothesis that the inputs are finite is not used.

  The three frame conjuncts are the generated runs; the idealization rewrote nothing, so there is nothing to
  preserve.
-/
import proofs.«158872_j15771119911450_2_alg».proof.Defs
import proofs.«158872_j15771119911450_2_alg».proof.Proof.Gen.Kernel
import proofs.«158872_j15771119911450_2_alg».proof.Proof.Gen.Kernel.Skeleton
import proofs.«158872_j15771119911450_2_alg».proof.Proof.Gen.Kernel.Launch
import proofs.«158872_j15771119911450_2_alg».proof.Proof.Gen.Kernel.Points
import proofs.«158872_j15771119911450_2_alg».proof.Proof.Gen.Kernel.Frame
import proofs.«158872_j15771119911450_2_alg».proof.Proof.Gen.KernelIdeal
import proofs.«158872_j15771119911450_2_alg».proof.Proof.Gen.KernelIdeal.Skeleton
import proofs.«158872_j15771119911450_2_alg».proof.Proof.Gen.KernelIdeal.Launch
import proofs.«158872_j15771119911450_2_alg».proof.Proof.Gen.KernelIdeal.Points
import proofs.«158872_j15771119911450_2_alg».proof.Proof.Gen.KernelIdeal.Frame
import proofs.«158872_j15771119911450_2_alg».proof.Proof.Gen.ReferenceIdeal
import proofs.«158872_j15771119911450_2_alg».proof.Proof.Gen.Pre_finite_inputs
import proofs.«158872_j15771119911450_2_alg».proof.Proof.Gen.ReferenceIdeal.Run
import proofs.«158872_j15771119911450_2_alg».proof.Proof.Gen.ReferenceIdeal.Read
import proofs.«158872_j15771119911450_2_alg».proof.Proof.StepSpec
import proofs.«158872_j15771119911450_2_alg».proof.Proof.RefIsStep
import proofs.«158872_j15771119911450_2_alg».proof.Proof.BodyIsStep
import proofs.«158872_j15771119911450_2_alg».proof.Proof.BlocksToArray
import proofs.«158872_j15771119911450_2_alg».proof.Proof.HostGlue
import Idealize.ShloMosaic.Adequacy
import Idealize.ShloMosaic.Init

noncomputable section

namespace Cert.Proof

open Idealize.ShloMosaic Idealize.ShloMosaic.TcCoe Idealize.SL.Sem

/-- The kernel as printed runs to the end, faults nowhere and leaves its argument as it found it. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the array program: its run, with what it says of the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the argument, both programs end with the staircase of that argument in their
    result, element by element: the kernel program by its blocks and the two reshapes, the array program by
    reading its operations at an index and the identity θ · 16 = u. -/
theorem algebraic : Cert.algebraic_KernelIdeal_ReferenceIdeal := by
  intro m ρ m' ρ' _ hagree
  refine ⟨fun c => fun i => Cert.StepRelu.stepAt Cert.StepRelu.Body.upper
      (m ((c.tc : Thread Cert.KernelIdeal.nD Cert.KernelIdeal.τ).loc Cert.KernelIdeal.main_arg0) i),
    Cert.StepRelu.Glue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.StepRelu.Ref.result_is_step, hagree c]
  rfl

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
